-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024 : Shape := ⟨1, ![1024]⟩
abbrev S1024x2048 : Shape := ⟨2, ![1024, 2048]⟩
abbrev S2048 : Shape := ⟨1, ![2048]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8x4096x1024 .f32) (main_arg1 : FVec F S1024 .f32) (main_arg2 : FVec F S1024 .f32) (main_arg3 : FVec F S1024x2048 .f32) (main_arg4 : FVec F S2048 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_v13 main_v16
-- ==== Kernel.lean ====
abbrev S8x4096x1024 : Shape := ⟨3, ![8, 4096, 1024]⟩
abbrev S1024 : Shape := ⟨1, ![1024]⟩
abbrev S1024x2048 : Shape := ⟨2, ![1024, 2048]⟩
abbrev S2048 : Shape := ⟨1, ![2048]⟩
abbrev S32768x1024 : Shape := ⟨2, ![32768, 1024]⟩
abbrev S1x1024 : Shape := ⟨2, ![1, 1024]⟩
abbrev S1x2048 : Shape := ⟨2, ![1, 2048]⟩
abbrev S1024x1024 : Shape := ⟨2, ![1024, 1024]⟩
abbrev S1024x1 : Shape := ⟨2, ![1024, 1]⟩

abbrev nBuf : Space → Nat
  | .hbm => 12
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S32768x1024, .f32⟩
  | .hbm, ⟨6, _⟩ => ⟨S1x1024, .f32⟩
  | .hbm, ⟨7, _⟩ => ⟨S1x1024, .f32⟩
  | .hbm, ⟨8, _⟩ => ⟨S1x2048, .f32⟩
  | .hbm, ⟨9, _⟩ => ⟨S1024x2048, .bf16⟩
  | .hbm, ⟨10, _⟩ => ⟨S32768x1024, .f32⟩
  | .hbm, ⟨11, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S1x2048, .f32⟩
  | .local _ .vmem, ⟨6, _⟩ => ⟨S1024x1024, .f32⟩
  | .local _ .vmem, ⟨7, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x4096x1024_S32768x1024 : S8x4096x1024.ShapeCasts S32768x1024
  shapeCasts_S1024_S1x1024 : S1024.ShapeCasts S1x1024
  shapeCasts_S2048_S1x2048 : S2048.ShapeCasts S1x2048
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  slices_S1024x2048_o0_0_S1024x1024 : S1024x2048.Slices ![0, 0] S1024x1024
  slices_S1024x2048_o0_1024_S1024x1024 : S1024x2048.Slices ![0, 1024] S1024x1024
  shapeCasts_S32768x1024_S8x4096x1024 : S32768x1024.ShapeCasts S8x4096x1024
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S32768x1024.size a
  hwx0_5 : ∀ i : grid0.Coords, EltTy.bits .f32 = 32 ∨ (Rect.block (s := S32768x1024) S1024x1024.size (cc0_transform_5 i) (hinb0_5 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2048 : Shape := ⟨3, ![8, 4096, 2048]⟩
abbrev S1x1x2048 : Shape := ⟨3, ![1, 1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S1x1x1024, .f32⟩
  | .hbm, ⟨32, _⟩ => ⟨S8x4096x1024, .f32⟩
  | .hbm, ⟨33, _⟩ => ⟨S8x4096x1024, .f32⟩
  | .hbm, ⟨34, _⟩ => ⟨S8x4096x2048, .f32⟩
  | .hbm, ⟨35, _⟩ => ⟨S1x1x2048, .f32⟩
  | .hbm, ⟨36, _⟩ => ⟨S8x4096x2048, .f32⟩
  | .hbm, ⟨37, _⟩ => ⟨S8x4096x2048, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S_, .f32⟩
  | .hbm, ⟨43, _⟩ => ⟨S8x4096x1024, .f32⟩
  | .hbm, ⟨44, _⟩ => ⟨S8x4096x1024, .f32⟩
  | .hbm, ⟨45, _⟩ => ⟨S_, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  slices_S8x4096x2048_S8x4096x1024_0_0_0 : S8x4096x2048.Slices ![0, 0, 0] S8x4096x1024
  slices_S8x4096x2048_S8x4096x1024_0_0_1024 : S8x4096x2048.Slices ![0, 0, 1024] S8x4096x1024
  bcast_S_S8x4096x1024 : S_.BroadcastsInDim S8x4096x1024 (![] : Fin 0 → Fin S8x4096x1024.rank)
  dot_S8x4096x1024_S1024x2048_S8x4096x2048_2_0_01_1_n_n_wf : DotDims.WF S8x4096x1024 S1024x2048 S8x4096x2048 [2] [0] [0, 1] [1] [] []

variable [Facts₀]

def dot_S8x4096x1024_S1024x2048_S8x4096x2048_2_0_01_1_n_n : DotDims S8x4096x1024 S1024x2048 S8x4096x2048 where
  lhsContracting := [2]
  rhsContracting := [0]
  lhsNonContracting := [0, 1]
  rhsNonContracting := [1]
  lhsBatch := []
  rhsBatch := []
  wf := dot_S8x4096x1024_S1024x2048_S8x4096x2048_2_0_01_1_n_n_wf

class Facts : Prop extends Facts₀ where

variable [Facts]
-- ==== Proof.GluRow.lean ====
/-
  One row of a gated linear block, on the extended reals.

  A row `x` of 1024 entries is normalised — its mean is taken off, and the centred row is scaled by the reciprocal
  square root of its mean square plus a small constant —, scaled entrywise by `g` and shifted by `be`; the
  normalised row is multiplied into a 1024 × 2048 table `W` and shifted by `b`; the first 1024 entries of that
  product are the values, the last 1024 the gates; entry `d` of the result is `x d` plus value `d` times the
  logistic function of gate `d`.  Both means divide the row's sum by the f32 word of 1024, and the small constant is
  the f32 word nearest 1e-5: the words stay as they are printed, since both programs print the same ones.

  `G` reads this row function at every index of a [8, 4096, 1024] array: entry (i, j, d) depends on the row (i, j, ·)
  of the first argument only.
-/
import Idealize.ShloMosaic.PureOps.Ideal
import Idealize.ShloMosaic.Lib.ValueIdx

noncomputable section

namespace Cert.GluRow

open Idealize.ShloMosaic Idealize.ShloMosaic.ValueIdx

/-- The mean of a row: its sum divided by the f32 word of 1024. -/
def mean (x : Fin 1024 → EReal) : EReal := Ideal.div (∑ k : Fin 1024, x k) (Ideal.ofBits .f32 0x44800000#32)

/-- The row with its mean taken off. -/
def centred (x : Fin 1024 → EReal) (k : Fin 1024) : EReal := x k - mean x

/-- The reciprocal square root of the mean square of the centred row plus the f32 word nearest 1e-5. -/
def invStd (x : Fin 1024 → EReal) : EReal :=
  Ideal.rsqrt (mean (fun k => centred x k * centred x k) + Ideal.ofBits .f32 0x3727C5AC#32)

/-- The normalised row, scaled by `g` and shifted by `be`. -/
def normed (x g be : Fin 1024 → EReal) (k : Fin 1024) : EReal := centred x k * invStd x * g k + be k

/-- Entry `e` of the normalised row's product with the table, shifted by `b`. -/
def proj (x g be : Fin 1024 → EReal) (W : Fin 1024 → Fin 2048 → EReal) (b : Fin 2048 → EReal) (e : Fin 2048) : EReal :=
  (∑ k : Fin 1024, normed x g be k * W k e) + b e

/-- Column `d` of the value half. -/
def lo (d : Fin 1024) : Fin 2048 := ⟨d.val, by have := d.isLt; omega⟩
/-- Column `d` of the gate half. -/
def hi (d : Fin 1024) : Fin 2048 := ⟨1024 + d.val, by have := d.isLt; omega⟩

/-- Entry `d` of the block's result on one row. -/
def out (x g be : Fin 1024 → EReal) (W : Fin 1024 → Fin 2048 → EReal) (b : Fin 2048 → EReal) (d : Fin 1024) : EReal :=
  x d + proj x g be W b (lo d) * Ideal.logistic (proj x g be W b (hi d))

/-- The block's result as one function of the five argument arrays, index by index. -/
def G (x : (⟨3, ![8, 4096, 1024]⟩ : Shape).Idx → EReal) (g be : (⟨1, ![1024]⟩ : Shape).Idx → EReal)
    (W : (⟨2, ![1024, 2048]⟩ : Shape).Idx → EReal) (b : (⟨1, ![2048]⟩ : Shape).Idx → EReal) :
    (⟨3, ![8, 4096, 1024]⟩ : Shape).Idx → EReal :=
  fun i => out (fun k => x (ix3 (i 0) (i 1) k)) (fun k => g (ix1 k)) (fun k => be (ix1 k))
    (fun k e => W (ix2 k e)) (fun e => b (ix1 e)) (i 2)

/-- `G` at an index written by coordinates. -/
theorem G_ix3 (x : (⟨3, ![8, 4096, 1024]⟩ : Shape).Idx → EReal) (g be : (⟨1, ![1024]⟩ : Shape).Idx → EReal)
    (W : (⟨2, ![1024, 2048]⟩ : Shape).Idx → EReal) (b : (⟨1, ![2048]⟩ : Shape).Idx → EReal)
    (i : Fin 8) (j : Fin 4096) (d : Fin 1024) :
    G x g be W b (ix3 i j d) = out (fun k => x (ix3 i j k)) (fun k => g (ix1 k)) (fun k => be (ix1 k))
      (fun k e => W (ix2 k e)) (fun e => b (ix1 e)) d := rfl

end Cert.GluRow

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibRank3.lean ====
/-
  Layout operations and one-axis reductions of rank-3 arrays read at an index written by coordinates.

  A reduction of `[a, b, c]` over its middle or its last axis with kept dimensions comes back over the reduced
  axis through a cast to `[a, 1, c]` (or `[a, b, 1]`) and a broadcast to `[a, b, c]`; the same two steps carry a
  matrix `[a, b]` along a new last axis (`[a, b] → [a, b, 1] → [a, b, c]`) or along a new middle axis
  (`[a, c] → [a, 1, c] → [a, b, c]`). Each is read here at `(i, j, k)`. The reductions: at the ideal values a sum
  over one axis is the `Fin`-indexed sum over that axis's coordinates, and a maximum over the last axis of a matrix
  is the fold of `max` over them. General lemmas: any extents.
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A matrix carried along a new last axis: `[a, b] → [a, b, 1] → [a, b, c]` at `(i, j, k)` is the matrix at `(i, j)`. -/
theorem keepLast_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A matrix carried along a new middle axis: `[a, c] → [a, 1, c] → [a, b, c]` at `(i, j, k)` is the matrix at `(i, k)`. -/
theorem keepMid_apply {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-! ## One-axis reductions at the ideal values, at coordinates -/

variable {φ : FTy}

/-- The sum of an `[a, b]` matrix over its last axis, at row `i`. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun d => Fin.ext (by
      match d with | ⟨0, _⟩ => rfl | ⟨1, _⟩ => rfl)))

/-- The maximum of an `[a, b]` matrix over its last axis, at row `i`: the fold of `max` from the accumulator's value. -/
theorem max_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun j => src (ix2 i j)) :=
  (Ideal.multiReduction_maximumf_single src acc h hφ hacc (ix1 i)).trans
    (congrArg (Finset.fold max (Ideal.ofBits φ acc) · (Finset.univ : Finset (Fin b)))
      (funext fun j => congrArg src (funext fun d => Fin.ext (by
        match d with | ⟨0, _⟩ => rfl | ⟨1, _⟩ => rfl))))

/-- The sum of an `[a, b, c]` array over its middle axis, at `(i, k)`. -/
theorem sum_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun d => Fin.ext (by
      match d with | ⟨0, _⟩ => rfl | ⟨1, _⟩ => rfl | ⟨2, _⟩ => rfl)))

/-- The sum of an `[a, b, c]` array over its last axis, at `(i, j)`. -/
theorem sum_last3 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by
      match d with | ⟨0, _⟩ => rfl | ⟨1, _⟩ => rfl | ⟨2, _⟩ => rfl)))

end Cert.LibRank3
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.KernelRow.lean ====
/-
  What the kernel's body stores, read at an entry (p, d) of its 1024 × 1024 block, is the row function of `GluRow`
  on row p of the loaded block.

  The body's arithmetic is restated here in stages — the row means as a column, the centred block, the reciprocal
  square roots as a column, the normalised block, the projected block, the result — each stage a definition over the
  one before, so that the stored value is their composition and each stage is read at an entry in a few lines: a sum
  along the rows by the sum over the row's coordinates, a column carried back along the rows by its entry, a one-row
  array carried down the rows by its entry, the product into the zero accumulator by the sum over the contracted
  coordinate, each half of the projected block by its column offset.  The narrowing of the product's left operand is
  the identity on the extended reals.
-/
import proofs.«165233_j53446573032203_2_alg».proof.Proof.Gen.KernelIdeal.Skeleton
import proofs.«165233_j53446573032203_2_alg».proof.Proof.GluRow
import proofs.«165233_j53446573032203_2_alg».proof.Proof.LibKeepdims
import proofs.«165233_j53446573032203_2_alg».proof.Proof.LibRank3
import proofs.«165233_j53446573032203_2_alg».proof.Proof.LibPlainDot
import Idealize.ShloMosaic.Lib.ValueLayout
import Idealize.ShloMosaic.Lib.Pipeline.Value

noncomputable section

namespace Cert.KernelRow

open Idealize.ShloMosaic Idealize.ShloMosaic.ValueIdx Cert.KernelIdeal Cert.GluRow

/-! ## The body's arithmetic in stages -/

/-- The row means of a block, as a column: each row's sum over 1024. -/
def meanCol (v : FVec Ideal S1024x1024 .f32) : FVec Ideal S1024x1 .f32 :=
  divf (shapeCast S1024x1 (multiReduction .add [1] S1024 v 0x00000000#32 Gen.reduces_S1024x1024_S1024 (.inl rfl) rfl)
      Gen.shapeCasts_S1024_S1024x1)
    (broadcast S1024x1 (Scalar.ofBits .f32 0x44800000#32))

/-- The block with each row's mean taken off. -/
def centredBlk (v : FVec Ideal S1024x1024 .f32) : FVec Ideal S1024x1024 .f32 :=
  subf v (broadcastTo S1024x1024 (meanCol v) Gen.broadcasts_S1024x1_S1024x1024)

/-- Per row, the reciprocal square root of the mean square of the centred row plus the small constant. -/
def invCol (v : FVec Ideal S1024x1024 .f32) : FVec Ideal S1024x1 .f32 :=
  rsqrt (addf (meanCol (mulf (centredBlk v) (centredBlk v))) (broadcast S1024x1 (Scalar.ofBits .f32 0x3727C5AC#32)))

/-- The normalised block, scaled by the one-row array `g` and shifted by the one-row array `be`. -/
def normedBlk (v : FVec Ideal S1024x1024 .f32) (g be : FVec Ideal S1x1024 .f32) : FVec Ideal S1024x1024 .f32 :=
  addf (mulf (mulf (centredBlk v) (broadcastTo S1024x1024 (invCol v) Gen.broadcasts_S1024x1_S1024x1024))
      (broadcastTo S1024x1024 g Gen.broadcasts_S1x1024_S1024x1024))
    (broadcastTo S1024x1024 be Gen.broadcasts_S1x1024_S1024x1024)

/-- The normalised block times the table, plus the one-row shift. -/
def projBlk (v : FVec Ideal S1024x1024 .f32) (g be : FVec Ideal S1x1024 .f32) (w : FVec Ideal S1024x2048 .bf16)
    (b : FVec Ideal S1x2048 .f32) : FVec Ideal S1024x2048 .f32 :=
  addf (matmul dot_S1024x1024_S1024x2048_S1024x2048_1_0_0_1_n_n none (truncf .bf16 (normedBlk v g be) Gen.bitsLt_bf16_f32) w
      (constant S1024x2048 .f32 0x00000000#32))
    (broadcastTo S1024x2048 b Gen.broadcasts_S1x2048_S1024x2048)

/-- The block the body stores: the loaded block plus the value half times the logistic function of the gate half. -/
def outBlk (v : FVec Ideal S1024x1024 .f32) (g be : FVec Ideal S1x1024 .f32) (w : FVec Ideal S1024x2048 .bf16)
    (b : FVec Ideal S1x2048 .f32) : FVec Ideal S1024x1024 .f32 :=
  addf v (mulf (extractStridedSlice S1024x1024 ![0, 0] (projBlk v g be w b) Gen.slices_S1024x2048_o0_0_S1024x1024)
    (logistic (extractStridedSlice S1024x1024 ![0, 1024] (projBlk v g be w b) Gen.slices_S1024x2048_o0_1024_S1024x1024)))

/-- The stored value is the stages' composition on the loaded blocks (each passed through a cast to its own shape). -/
theorem pay_eq (x0 : Vec Ideal S1024x1024 .f32) (x1 x2 : Vec Ideal S1x1024 .f32) (x3 : Vec Ideal S1024x2048 .bf16)
    (x4 : Vec Ideal S1x2048 .f32) :
    Gen.k0_pay1 (F := Ideal) x0 x1 x2 x3 x4
      = outBlk (shapeCast S1024x1024 x0 Gen.shapeCasts_S1024x1024_S1024x1024) (shapeCast S1x1024 x1 Gen.shapeCasts_S1x1024_S1x1024)
          (shapeCast S1x1024 x2 Gen.shapeCasts_S1x1024_S1x1024) (shapeCast S1024x2048 x3 Gen.shapeCasts_S1024x2048_S1024x2048)
          (shapeCast S1x2048 x4 Gen.shapeCasts_S1x2048_S1x2048) := rfl

/-! ## Each stage at an entry -/

/-- The mean column at row `p`. -/
theorem meanCol_apply (v : FVec Ideal S1024x1024 .f32) (p : Fin 1024) (u : Fin 1) :
    meanCol v (ix2 p u) = mean (fun k => v (ix2 p k)) := by
  show Ideal.div (shapeCast S1024x1 _ Gen.shapeCasts_S1024_S1024x1 (ix2 p u)) (Ideal.ofBits .f32 0x44800000#32) = _
  rw [LibKeepdims.shapeCast_a_a1_apply]
  exact congrArg (fun z => Ideal.div z (Ideal.ofBits .f32 0x44800000#32))
    (LibRank3.sum_last2 v 0x00000000#32 Gen.reduces_S1024x1024_S1024 (.inl rfl) rfl p)

/-- The centred block at (p, k). -/
theorem centredBlk_apply (v : FVec Ideal S1024x1024 .f32) (p k : Fin 1024) :
    centredBlk v (ix2 p k) = centred (fun k => v (ix2 p k)) k := by
  show v (ix2 p k) - broadcastTo S1024x1024 (meanCol v) Gen.broadcasts_S1024x1_S1024x1024 (ix2 p k) = _
  rw [LibKeepdims.broadcastTo_a1_ab_apply, meanCol_apply]
  rfl

/-- The reciprocal-square-root column at row `p`. -/
theorem invCol_apply (v : FVec Ideal S1024x1024 .f32) (p : Fin 1024) (u : Fin 1) :
    invCol v (ix2 p u) = invStd (fun k => v (ix2 p k)) := by
  show Ideal.rsqrt (meanCol (mulf (centredBlk v) (centredBlk v)) (ix2 p u) + Ideal.ofBits .f32 0x3727C5AC#32) = _
  rw [meanCol_apply]
  simp only [mulf_apply, centredBlk_apply]
  rfl

/-- The normalised block at (p, k). -/
theorem normedBlk_apply (v : FVec Ideal S1024x1024 .f32) (g be : FVec Ideal S1x1024 .f32) (p k : Fin 1024) :
    normedBlk v g be (ix2 p k)
      = normed (fun k => v (ix2 p k)) (fun k => g (ix2 (0 : Fin 1) k)) (fun k => be (ix2 (0 : Fin 1) k)) k := by
  show centredBlk v (ix2 p k) * broadcastTo S1024x1024 (invCol v) Gen.broadcasts_S1024x1_S1024x1024 (ix2 p k)
      * broadcastTo S1024x1024 g Gen.broadcasts_S1x1024_S1024x1024 (ix2 p k)
      + broadcastTo S1024x1024 be Gen.broadcasts_S1x1024_S1024x1024 (ix2 p k) = _
  rw [centredBlk_apply, LibKeepdims.broadcastTo_a1_ab_apply, invCol_apply, broadcastTo_1b_ab_apply, broadcastTo_1b_ab_apply]
  rfl

/-- The projected block at (p, e). -/
theorem projBlk_apply (v : FVec Ideal S1024x1024 .f32) (g be : FVec Ideal S1x1024 .f32) (w : FVec Ideal S1024x2048 .bf16)
    (b : FVec Ideal S1x2048 .f32) (p : Fin 1024) (e : Fin 2048) :
    projBlk v g be w b (ix2 p e)
      = proj (fun k => v (ix2 p k)) (fun k => g (ix2 (0 : Fin 1) k)) (fun k => be (ix2 (0 : Fin 1) k))
          (fun k e => w (ix2 k e)) (fun e => b (ix2 (0 : Fin 1) e)) e := by
  show matmul dot_S1024x1024_S1024x2048_S1024x2048_1_0_0_1_n_n none (truncf .bf16 (normedBlk v g be) Gen.bitsLt_bf16_f32) w
        (constant S1024x2048 .f32 0x00000000#32) (ix2 p e)
      + broadcastTo S1024x2048 b Gen.broadcasts_S1x2048_S1024x2048 (ix2 p e) = _
  refine (congrArg₂ (· + ·)
    (PlainDot.matmul_zero_ix2 dot_S1024x1024_S1024x2048_S1024x2048_1_0_0_1_n_n rfl none
      (truncf .bf16 (normedBlk v g be) Gen.bitsLt_bf16_f32) w p e)
    (broadcastTo_1b_ab_apply b Gen.broadcasts_S1x2048_S1024x2048 p e)).trans ?_
  simp only [truncf_apply, normedBlk_apply]
  rfl

/-- The stored block at (p, d). -/
theorem outBlk_apply (v : FVec Ideal S1024x1024 .f32) (g be : FVec Ideal S1x1024 .f32) (w : FVec Ideal S1024x2048 .bf16)
    (b : FVec Ideal S1x2048 .f32) (p d : Fin 1024) :
    outBlk v g be w b (ix2 p d)
      = out (fun k => v (ix2 p k)) (fun k => g (ix2 (0 : Fin 1) k)) (fun k => be (ix2 (0 : Fin 1) k))
          (fun k e => w (ix2 k e)) (fun e => b (ix2 (0 : Fin 1) e)) d := by
  show v (ix2 p d)
      + extractStridedSlice S1024x1024 ![0, 0] (projBlk v g be w b) Gen.slices_S1024x2048_o0_0_S1024x1024 (ix2 p d)
        * Ideal.logistic (extractStridedSlice S1024x1024 ![0, 1024] (projBlk v g be w b) Gen.slices_S1024x2048_o0_1024_S1024x1024 (ix2 p d)) = _
  rw [slice2_axis1_apply 0 _ _ p d (lo d) (by show d.val = 0 + d.val; omega),
    slice2_axis1_apply 1024 _ _ p d (hi d) rfl, projBlk_apply, projBlk_apply]
  rfl

/-- The body's stored value at (p, d): the row function on row `p` of the loaded block, the scale, shift and bias read
    off their one row, the table off the loaded table. -/
theorem pay_apply (x0 : Vec Ideal S1024x1024 .f32) (x1 x2 : Vec Ideal S1x1024 .f32) (x3 : Vec Ideal S1024x2048 .bf16)
    (x4 : Vec Ideal S1x2048 .f32) (p d : Fin 1024) :
    Gen.k0_pay1 (F := Ideal) x0 x1 x2 x3 x4 (ix2 p d)
      = out (fun k => x0 (ix2 p k)) (fun k => x1 (ix2 (0 : Fin 1) k)) (fun k => x2 (ix2 (0 : Fin 1) k))
          (fun k e => x3 (ix2 k e)) (fun e => x4 (ix2 (0 : Fin 1) e)) d := by
  rw [pay_eq, shapeCast_self, shapeCast_self, shapeCast_self, shapeCast_self, shapeCast_self]
  exact outBlk_apply x0 x1 x2 x3 x4 p d

end Cert.KernelRow

end
-- ==== Proof.FlatRows.lean ====
/-
  The row function over the flattened array the kernel works on.

  The kernel sees the [8, 4096, 1024] argument as a [32768, 1024] array — row `i * 4096 + j` of the flat array is row
  (i, j, ·) of the argument —, sees the scale, shift and bias vectors as one-row arrays, and hands its flat result back
  in the argument's shape.  `K` is the row function read at every index of the flat array; recast to three axes, over
  the recast arguments, it is `GluRow.G` of the arguments themselves: the two recasts preserve row-major positions, and
  a one-row array's entry is the vector's.
-/
import proofs.«165233_j53446573032203_2_alg».proof.Proof.GluRow
import Idealize.ShloMosaic.Lib.ValueLayout
import Idealize.ShloMosaic.Lib.Pipeline.Value

noncomputable section

namespace Cert.FlatRows

open Idealize.ShloMosaic Idealize.ShloMosaic.ValueIdx Cert.GluRow

/-- The row function at every index of a [32768, 1024] array, the scale, shift and bias given as one-row arrays. -/
def K (X : (⟨2, ![32768, 1024]⟩ : Shape).Idx → EReal) (g be : (⟨2, ![1, 1024]⟩ : Shape).Idx → EReal)
    (w : (⟨2, ![1024, 2048]⟩ : Shape).Idx → EReal) (b : (⟨2, ![1, 2048]⟩ : Shape).Idx → EReal) :
    (⟨2, ![32768, 1024]⟩ : Shape).Idx → EReal :=
  fun i => out (fun k => X (ix2 (i 0) k)) (fun k => g (ix2 (0 : Fin 1) k)) (fun k => be (ix2 (0 : Fin 1) k))
    (fun k e => w (ix2 k e)) (fun e => b (ix2 (0 : Fin 1) e)) (i 1)

/-- `K` at an index written by coordinates. -/
theorem K_ix2 (X : (⟨2, ![32768, 1024]⟩ : Shape).Idx → EReal) (g be : (⟨2, ![1, 1024]⟩ : Shape).Idx → EReal)
    (w : (⟨2, ![1024, 2048]⟩ : Shape).Idx → EReal) (b : (⟨2, ![1, 2048]⟩ : Shape).Idx → EReal) (r : Fin 32768) (d : Fin 1024) :
    K X g be w b (ix2 r d) = out (fun k => X (ix2 r k)) (fun k => g (ix2 (0 : Fin 1) k)) (fun k => be (ix2 (0 : Fin 1) k))
      (fun k e => w (ix2 k e)) (fun e => b (ix2 (0 : Fin 1) e)) d := rfl

/-- The flat result recast to three axes, over the recast arguments, is `G` of the arguments. -/
theorem unflatten_eq (x : (⟨3, ![8, 4096, 1024]⟩ : Shape).Idx → EReal) (g be : (⟨1, ![1024]⟩ : Shape).Idx → EReal)
    (W : (⟨2, ![1024, 2048]⟩ : Shape).Idx → EReal) (b : (⟨1, ![2048]⟩ : Shape).Idx → EReal)
    (h0 : (⟨3, ![8, 4096, 1024]⟩ : Shape).ShapeCasts ⟨2, ![32768, 1024]⟩)
    (h1 : (⟨1, ![1024]⟩ : Shape).ShapeCasts ⟨2, ![1, 1024]⟩) (h4 : (⟨1, ![2048]⟩ : Shape).ShapeCasts ⟨2, ![1, 2048]⟩)
    (h5 : (⟨2, ![32768, 1024]⟩ : Shape).ShapeCasts ⟨3, ![8, 4096, 1024]⟩) :
    shapeCast ⟨3, ![8, 4096, 1024]⟩
        (K (shapeCast ⟨2, ![32768, 1024]⟩ x h0) (shapeCast ⟨2, ![1, 1024]⟩ g h1) (shapeCast ⟨2, ![1, 1024]⟩ be h1) W
          (shapeCast ⟨2, ![1, 2048]⟩ b h4)) h5
      = G x g be W b := by
  funext i
  obtain ⟨a, c, d, rfl⟩ : ∃ (a : Fin 8) (c : Fin 4096) (d : Fin 1024), i = ix3 a c d := ⟨i 0, i 1, i 2, eq_ix3 i⟩
  have hr : a.val * 4096 + c.val < 32768 := by have := a.isLt; have := c.isLt; omega
  rw [shapeCast_apply _ h5 (ix3 a c d) (ix2 (⟨a.val * 4096 + c.val, hr⟩ : Fin 32768) d)
    (by rw [Shape.rowMajor_val_two, Shape.rowMajor_val_three]; rfl), K_ix2, G_ix3]
  have e0 : (fun k : Fin 1024 => shapeCast ⟨2, ![32768, 1024]⟩ x h0 (ix2 (⟨a.val * 4096 + c.val, hr⟩ : Fin 32768) k))
      = fun k => x (ix3 a c k) :=
    funext fun k => shapeCast_apply x h0 _ _ (by rw [Shape.rowMajor_val_two, Shape.rowMajor_val_three]; rfl)
  have e1 : (fun k : Fin 1024 => shapeCast ⟨2, ![1, 1024]⟩ g h1 (ix2 (0 : Fin 1) k)) = fun k => g (ix1 k) :=
    funext fun k => shapeCast_a_1a_apply g h1 0 k
  have e2 : (fun k : Fin 1024 => shapeCast ⟨2, ![1, 1024]⟩ be h1 (ix2 (0 : Fin 1) k)) = fun k => be (ix1 k) :=
    funext fun k => shapeCast_a_1a_apply be h1 0 k
  have e4 : (fun e : Fin 2048 => shapeCast ⟨2, ![1, 2048]⟩ b h4 (ix2 (0 : Fin 1) e)) = fun e => b (ix1 e) :=
    funext fun e => shapeCast_a_1a_apply b h4 0 e
  rw [e0, e1, e2, e4]

end Cert.FlatRows

end
-- ==== Proof.KernelArray.lean ====
/-
  The kernel's result array after its run, as one function of its argument arrays.

  The grid has 32 points; at point `t` the body reads rows `1024 t … 1024 t + 1023` of the flattened argument and the
  whole of the one-row scale, shift and bias arrays and of the narrowed table, and writes the same rows of the output.
  What a point writes back is therefore that block of the row function `FlatRows.K` over the arrays as the region
  finds them; the 32 blocks cover the output, so the output array ends holding `K`.  The arrays the region finds are
  recasts of the arguments (and the table narrowed, which on the extended reals is the table), and the line after the
  region recasts the output to three axes: by `FlatRows.unflatten_eq` the result is `GluRow.G` of the arguments.
-/
import proofs.«165233_j53446573032203_2_alg».proof.Proof.Gen.KernelIdeal.Frame
import proofs.«165233_j53446573032203_2_alg».proof.Proof.KernelRow
import proofs.«165233_j53446573032203_2_alg».proof.Proof.FlatRows
import Idealize.ShloMosaic.Lib.Pipeline.Value
import Idealize.ShloMosaic.Lib.StableHlo.Run

set_option maxRecDepth 16384

noncomputable section

namespace Cert.KernelIdeal.ArrayValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

theorem zeros : (![0, 0] : Fin 2 → Nat) = fun _ => 0 := funext fun a => by fin_cases a <;> rfl

/-- The printed index maps over the grid: the argument's and the output's block at point `t` is block `t` along the
    rows and the one block along the columns; every other window's block is its whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- An entry of the stored block is the row function over whole arrays, once the loaded blocks' rows are known to be
    the arrays' rows. -/
theorem block_entry (X : S32768x1024.Idx → EReal) (g be : S1x1024.Idx → EReal) (w : S1024x2048.Idx → EReal) (b : S1x2048.Idx → EReal)
    (x0 : Vec Ideal S1024x1024 .f32) (x1 x2 : Vec Ideal S1x1024 .f32) (x3 : Vec Ideal S1024x2048 .bf16) (x4 : Vec Ideal S1x2048 .f32)
    (r : Fin 32768) (p d : Fin 1024)
    (h0 : ∀ k : Fin 1024, x0 (ix2 p k) = X (ix2 r k))
    (h1 : ∀ k : Fin 1024, x1 (ix2 (0 : Fin 1) k) = g (ix2 (0 : Fin 1) k))
    (h2 : ∀ k : Fin 1024, x2 (ix2 (0 : Fin 1) k) = be (ix2 (0 : Fin 1) k))
    (h3 : ∀ (k : Fin 1024) (e : Fin 2048), x3 (ix2 k e) = w (ix2 k e))
    (h4 : ∀ e : Fin 2048, x4 (ix2 (0 : Fin 1) e) = b (ix2 (0 : Fin 1) e)) :
    k0_pay1 (F := Ideal) x0 x1 x2 x3 x4 (ix2 p d) = FlatRows.K X g be w b (ix2 r d) := by
  rw [KernelRow.pay_apply, FlatRows.K_ix2]
  have e0 : (fun k : Fin 1024 => x0 (ix2 p k)) = fun k => X (ix2 r k) := funext h0
  have e1 : (fun k : Fin 1024 => x1 (ix2 (0 : Fin 1) k)) = fun k => g (ix2 (0 : Fin 1) k) := funext h1
  have e2 : (fun k : Fin 1024 => x2 (ix2 (0 : Fin 1) k)) = fun k => be (ix2 (0 : Fin 1) k) := funext h2
  have e3 : (fun (k : Fin 1024) (e : Fin 2048) => x3 (ix2 k e)) = fun k e => w (ix2 k e) := funext fun k => funext (h3 k)
  have e4 : (fun e : Fin 2048 => x4 (ix2 (0 : Fin 1) e)) = fun e => b (ix2 (0 : Fin 1) e) := funext h4
  rw [e0, e1, e2, e3, e4]

/-- WHAT POINT `t` WRITES BACK is block `t` of `K` over the arrays as the region finds them. -/
theorem flushed5_eq (c : Dev nD) (t : Fin cfg0.N) :
    (dats m 0 c).flushed 5 t = ((cfg0.win 5).blk t).view.read (Elt Ideal)
      (FlatRows.K (V m c main_v0) (V m c main_v1) (V m c main_v2) (V m c main_v4) (V m c main_v3)) := by
  show (cfg0.win 5).cut (grid0.coords t) ((dats m 0 c).after 5 t) = _
  rw [after0_5]
  unfold out0_5
  rw [View.canon_unit_zero zeros]
  simp only [View.ld_unit_zero (S := S1024x1024) zeros, View.ld_unit_zero (S := S1x1024) zeros,
    View.ld_unit_zero (S := S1024x2048) zeros, View.ld_unit_zero (S := S1x2048) zeros]
  obtain ⟨e00, e01, e10, e11, e20, e21, e30, e31, e40, e41, e50, e51⟩ := idx_facts t
  have ht : t.val < 32 := lt_of_lt_of_eq t.isLt N_0
  funext j
  obtain ⟨p, d, rfl⟩ : ∃ (p d : Fin 1024), j = ix2 p d := ⟨j 0, j 1, eq_ix2 j⟩
  have hp : p.val < 1024 := p.isLt
  have hr : t.val * 1024 + p.val < 32768 := by omega
  show k0_pay1 (F := Ideal) (iblk m c 0 t) (iblk m c 1 t) (iblk m c 2 t) (iblk m c 3 t) (iblk m c 4 t) (ix2 p d)
    = FlatRows.K (V m c main_v0) (V m c main_v1) (V m c main_v2) (V m c main_v4) (V m c main_v3)
        (((cfg0.win 5).blk t).view.emb (ix2 p d))
  have hemb : ((cfg0.win 5).blk t).view.emb (ix2 p d) = ix2 (⟨t.val * 1024 + p.val, hr⟩ : Fin 32768) d := by
    funext a; apply Fin.ext
    match a with
    | ⟨0, _⟩ => show win0_5.index t (0 : Fin 2) * 1024 + 1 * p.val = t.val * 1024 + p.val; omega
    | ⟨1, _⟩ => show win0_5.index t (1 : Fin 2) * 1024 + 1 * d.val = d.val; omega
  rw [hemb]
  have h0 : ∀ k : Fin 1024, iblk m c 0 t (ix2 p k) = V m c main_v0 (ix2 (⟨t.val * 1024 + p.val, hr⟩ : Fin 32768) k) := fun k => by
    show V m c main_v0 (((cfg0.win 0).blk t).view.emb (ix2 p k)) = V m c main_v0 (ix2 (⟨t.val * 1024 + p.val, hr⟩ : Fin 32768) k)
    refine congrArg (V m c main_v0) (funext fun a => Fin.ext ?_)
    match a with
    | ⟨0, _⟩ => show win0_0.index t (0 : Fin 2) * 1024 + 1 * p.val = t.val * 1024 + p.val; omega
    | ⟨1, _⟩ => show win0_0.index t (1 : Fin 2) * 1024 + 1 * k.val = k.val; omega
  have h1 : ∀ k : Fin 1024, iblk m c 1 t (ix2 (0 : Fin 1) k) = V m c main_v1 (ix2 (0 : Fin 1) k) := fun k => by
    show V m c main_v1 (((cfg0.win 1).blk t).view.emb (ix2 (0 : Fin 1) k)) = V m c main_v1 (ix2 (0 : Fin 1) k)
    refine congrArg (V m c main_v1) (funext fun a => Fin.ext ?_)
    match a with
    | ⟨0, _⟩ => show win0_1.index t (0 : Fin 2) * 1 + 1 * 0 = 0; omega
    | ⟨1, _⟩ => show win0_1.index t (1 : Fin 2) * 1024 + 1 * k.val = k.val; omega
  have h2 : ∀ k : Fin 1024, iblk m c 2 t (ix2 (0 : Fin 1) k) = V m c main_v2 (ix2 (0 : Fin 1) k) := fun k => by
    show V m c main_v2 (((cfg0.win 2).blk t).view.emb (ix2 (0 : Fin 1) k)) = V m c main_v2 (ix2 (0 : Fin 1) k)
    refine congrArg (V m c main_v2) (funext fun a => Fin.ext ?_)
    match a with
    | ⟨0, _⟩ => show win0_2.index t (0 : Fin 2) * 1 + 1 * 0 = 0; omega
    | ⟨1, _⟩ => show win0_2.index t (1 : Fin 2) * 1024 + 1 * k.val = k.val; omega
  have h3 : ∀ (k : Fin 1024) (e : Fin 2048), iblk m c 3 t (ix2 k e) = V m c main_v4 (ix2 k e) := fun k e => by
    show V m c main_v4 (((cfg0.win 3).blk t).view.emb (ix2 k e)) = V m c main_v4 (ix2 k e)
    refine congrArg (V m c main_v4) (funext fun a => Fin.ext ?_)
    match a with
    | ⟨0, _⟩ => show win0_3.index t (0 : Fin 2) * 1024 + 1 * k.val = k.val; omega
    | ⟨1, _⟩ => show win0_3.index t (1 : Fin 2) * 2048 + 1 * e.val = e.val; omega
  have h4 : ∀ e : Fin 2048, iblk m c 4 t (ix2 (0 : Fin 1) e) = V m c main_v3 (ix2 (0 : Fin 1) e) := fun e => by
    show V m c main_v3 (((cfg0.win 4).blk t).view.emb (ix2 (0 : Fin 1) e)) = V m c main_v3 (ix2 (0 : Fin 1) e)
    refine congrArg (V m c main_v3) (funext fun a => Fin.ext ?_)
    match a with
    | ⟨0, _⟩ => show win0_4.index t (0 : Fin 2) * 1 + 1 * 0 = 0; omega
    | ⟨1, _⟩ => show win0_4.index t (1 : Fin 2) * 2048 + 1 * e.val = e.val; omega
  exact block_entry (V m c main_v0) (V m c main_v1) (V m c main_v2) (V m c main_v4) (V m c main_v3)
    (iblk m c 0 t) (iblk m c 1 t) (iblk m c 2 t) (iblk m c 3 t) (iblk m c 4 t) ⟨t.val * 1024 + p.val, hr⟩ p d h0 h1 h2 h3 h4

/-- An index of the output is in point `t`'s block iff each coordinate is in the block's range on its axis. -/
theorem mem_blk5 (t : Fin cfg0.N) (i : S32768x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v5).slice (win0_5.rect t)).set ↔ _
  rw [View.set_slice_whole, Rect.mem_set_unit]
  exact Iff.rfl

/-- Every index of the output is in the block of the point its row falls to: row `r` in block `r / 1024`. -/
theorem cover5 (i : S32768x1024.Idx) :
    ∃ t : Fin cfg0.N, (cfg0.win 5).flush t = true ∧ i ∈ ((cfg0.win 5).blk t).view.set := by
  have hi0 : (i 0).val < 32768 := (i 0).isLt
  have hi1 : (i 1).val < 1024 := (i 1).isLt
  have hlt : (i 0).val / 1024 < cfg0.N := by
    show (i 0).val / 1024 < grid0.N
    rw [N_0]; omega
  obtain ⟨-, -, -, -, -, -, -, -, -, -, e50, e51⟩ := idx_facts ⟨(i 0).val / 1024, hlt⟩
  have e50' : win0_5.index ⟨(i 0).val / 1024, hlt⟩ (0 : Fin 2) = (i 0).val / 1024 := e50
  refine ⟨⟨(i 0).val / 1024, hlt⟩, flush0_5 _, ?_⟩
  rw [mem_blk5]
  intro a
  match a with
  | ⟨0, _⟩ =>
    show win0_5.index ⟨(i 0).val / 1024, hlt⟩ (0 : Fin 2) * 1024 ≤ (i 0).val
      ∧ (i 0).val < win0_5.index ⟨(i 0).val / 1024, hlt⟩ (0 : Fin 2) * 1024 + 1024
    omega
  | ⟨1, _⟩ =>
    show win0_5.index ⟨(i 0).val / 1024, hlt⟩ (1 : Fin 2) * 1024 ≤ (i 1).val
      ∧ (i 1).val < win0_5.index ⟨(i 0).val / 1024, hlt⟩ (1 : Fin 2) * 1024 + 1024
    omega

/-- THE OUTPUT ARRAY after the run: `K` over the arrays as the region finds them. -/
theorem final5 (c : Dev nD) : (dats m 0 c).arrAt 5 cfg0.N
    = FlatRows.K (V m c main_v0) (V m c main_v1) (V m c main_v2) (V m c main_v4) (V m c main_v3) :=
  (dats m 0 c).arrAt_eq_of_cover 5 _ (fun t _ => flushed5_eq m c t) cover5

/-! ## The arrays the region finds, and the line after it -/

theorem V_v0 (c : Dev nD) : (V m c main_v0 : S32768x1024.Idx → EReal)
    = shapeCast S32768x1024 (m ((c.tc : Thread nD τ).loc main_arg0)) shapeCasts_S8x4096x1024_S32768x1024 := by
  show StableHlo.after hostOps0 (fun b => m (c, b)) (Proc.devRef .tc main_v0) = _
  after_results
  rfl

theorem V_v1 (c : Dev nD) : (V m c main_v1 : S1x1024.Idx → EReal)
    = shapeCast S1x1024 (m ((c.tc : Thread nD τ).loc main_arg1)) shapeCasts_S1024_S1x1024 := by
  show StableHlo.after hostOps0 (fun b => m (c, b)) (Proc.devRef .tc main_v1) = _
  after_results
  rfl

theorem V_v2 (c : Dev nD) : (V m c main_v2 : S1x1024.Idx → EReal)
    = shapeCast S1x1024 (m ((c.tc : Thread nD τ).loc main_arg2)) shapeCasts_S1024_S1x1024 := by
  show StableHlo.after hostOps0 (fun b => m (c, b)) (Proc.devRef .tc main_v2) = _
  after_results
  rfl

theorem V_v3 (c : Dev nD) : (V m c main_v3 : S1x2048.Idx → EReal)
    = shapeCast S1x2048 (m ((c.tc : Thread nD τ).loc main_arg4)) shapeCasts_S2048_S1x2048 := by
  show StableHlo.after hostOps0 (fun b => m (c, b)) (Proc.devRef .tc main_v3) = _
  after_results
  rfl

/-- The narrowed table the region finds: on the extended reals, the table. -/
theorem V_v4 (c : Dev nD) : (V m c main_v4 : S1024x2048.Idx → EReal) = m ((c.tc : Thread nD τ).loc main_arg3) := by
  show StableHlo.after hostOps0 (fun b => m (c, b)) (Proc.devRef .tc main_v4) = _
  after_results
  rfl

/-- The result buffer after the line that follows the region: the output array recast to three axes. -/
theorem tail_v6 (c : Dev nD) :
    (Pipeline.afterTail₀ cfgs (dats m) 0 (V0 m) [hostOps1] c main_v6 : S8x4096x1024.Idx → EReal)
      = shapeCast S8x4096x1024 ((dats m 0 c).arrAt 5 cfg0.N) shapeCasts_S32768x1024_S8x4096x1024 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = (dats m 0 c).arrAt 5 cfg0.N :=
    Pipeline.withArrays_arr spec0 launch0.win.arr_inj c (V0 m c) (fun w => (dats m 0 c).arrAt w cfg0.N) 5
  rw [e]
  rfl

/-- The result buffer after the run is `G` of the argument arrays. -/
theorem result_v6 (c : Dev nD) :
    Pipeline.afterTail₀ cfgs (dats m) 0 (V0 m) [hostOps1] c main_v6
      = GluRow.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine (tail_v6 m c).trans ?_
  rw [final5, V_v0, V_v1, V_v2, V_v3, V_v4]
  exact FlatRows.unflatten_eq (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    shapeCasts_S8x4096x1024_S32768x1024 shapeCasts_S1024_S1x1024 shapeCasts_S2048_S1x2048 shapeCasts_S32768x1024_S8x4096x1024

/-! ## The run, read -/

/-- Every weakly fair execution of the idealized kernel's program ends with the result buffer at `G` of the argument
    arrays and the argument arrays unchanged. -/
theorem run : θ_run defs (onTc (τ := τ) (main (F := Ideal))) ⟨m, fun _ => 0, ρ⟩ fun r => ∀ c : Dev nD,
      r.2.mem ((c.tc : Thread nD τ).loc main_v6)
        = GluRow.G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v6 (Pipeline.mem_restRefs_of main_v6 (by decide) (by decide))).trans (result_v6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.ArrayValue

end
-- ==== Proof.RefRow.lean ====
/-
  The reference program's result, read at an index (i, j, d), is the row function of `GluRow` on row (i, j, ·) of its
  first argument.

  The reference works on the whole [8, 4096, 1024] array: two sums over the last axis with the kept axis broadcast
  back, the scale and shift vectors broadcast over the two leading axes, one contraction of the last axis against the
  table, and the gate's logistic function spelt as one over one plus the exponential of the negated gate.  Stage by
  stage, at an index written by coordinates, each of these is the matching piece of the row function: the mean, the
  centred entry, the reciprocal square root, the normalised entry, the projected entry, the result.
-/
import proofs.«165233_j53446573032203_2_alg».proof.Proof.Gen.ReferenceIdeal.Read
import proofs.«165233_j53446573032203_2_alg».proof.Proof.GluRow
import Idealize.ShloMosaic.Lib.IdealHost

noncomputable section

namespace Cert.RefRow

open Cert.ReferenceIdeal Cert.ReferenceIdeal.Read Idealize.ShloMosaic Idealize.ShloMosaic.ValueIdx Cert.GluRow

variable (x0 : (⟨S8x4096x1024, .f32⟩ : BufTy).Contents (Elt Ideal)) (x1 x2 : (⟨S1024, .f32⟩ : BufTy).Contents (Elt Ideal))
  (x3 : (⟨S1024x2048, .f32⟩ : BufTy).Contents (Elt Ideal)) (x4 : (⟨S2048, .f32⟩ : BufTy).Contents (Elt Ideal))

/-- The quotient of the row's sum by 1024, kept as a unit last axis, is the row's mean. -/
theorem mean_apply (i : Fin 8) (j : Fin 4096) (u : Fin 1) :
    val_main_v3 (F := Ideal) x0 (ix3 i j u) = mean (fun k => x0 (ix3 i j k)) := by
  rw [val_main_v3_apply, val_main_v1_apply, val_main_v0_apply, val_main_v2_apply, val_main_cst_0_apply, val_main_cst_apply]
  have e : ∀ k : Fin 1024, idx_main_v0 (idx_main_v1 (ix3 i j u)) k = ix3 i j k := fun k =>
    funext fun a => Fin.ext (by match a with | ⟨0, _⟩ => rfl | ⟨1, _⟩ => rfl | ⟨2, _⟩ => rfl)
  simp only [e]
  show Ideal.div (Ideal.ofBits .f32 0x00000000#32 + ∑ k : Fin 1024, x0 (ix3 i j k)) (Ideal.ofBits .f32 0x44800000#32) = _
  rw [Ideal.ofBits_zero_f32, zero_add]
  rfl

/-- The argument minus the mean broadcast back along the row (the copy the squares are taken of). -/
theorem centred_apply (i : Fin 8) (j : Fin 4096) (k : Fin 1024) :
    val_main_v5 (F := Ideal) x0 (ix3 i j k) = centred (fun k => x0 (ix3 i j k)) k := by
  rw [val_main_v5_apply, val_main_v4_apply]
  have e : idx_main_v4 (ix3 i j k) = ix3 i j (0 : Fin 1) :=
    funext fun a => Fin.ext (by match a with | ⟨0, _⟩ => rfl | ⟨1, _⟩ => rfl | ⟨2, _⟩ => rfl)
  rw [e, mean_apply]
  rfl

/-- The same difference, printed a second time (the copy that is scaled). -/
theorem centred_apply' (i : Fin 8) (j : Fin 4096) (k : Fin 1024) :
    val_main_v12 (F := Ideal) x0 (ix3 i j k) = centred (fun k => x0 (ix3 i j k)) k := by
  rw [val_main_v12_apply, val_main_v11_apply]
  have e : idx_main_v11 (ix3 i j k) = ix3 i j (0 : Fin 1) :=
    funext fun a => Fin.ext (by match a with | ⟨0, _⟩ => rfl | ⟨1, _⟩ => rfl | ⟨2, _⟩ => rfl)
  rw [e, mean_apply]
  rfl

/-- The mean of the squares of the centred row. -/
theorem meanSq_apply (i : Fin 8) (j : Fin 4096) (u : Fin 1) :
    val_main_v10 (F := Ideal) x0 (ix3 i j u)
      = mean (fun k => centred (fun k => x0 (ix3 i j k)) k * centred (fun k => x0 (ix3 i j k)) k) := by
  rw [val_main_v10_apply, val_main_v8_apply, val_main_v7_apply, val_main_v9_apply, val_main_cst_2_apply, val_main_cst_1_apply]
  have e : ∀ k : Fin 1024, idx_main_v7 (idx_main_v8 (ix3 i j u)) k = ix3 i j k := fun k =>
    funext fun a => Fin.ext (by match a with | ⟨0, _⟩ => rfl | ⟨1, _⟩ => rfl | ⟨2, _⟩ => rfl)
  simp only [e, val_main_v6_apply, centred_apply]
  show Ideal.div (Ideal.ofBits .f32 0x00000000#32 + ∑ k : Fin 1024, _) (Ideal.ofBits .f32 0x44800000#32) = _
  rw [Ideal.ofBits_zero_f32, zero_add]
  rfl

/-- The reciprocal square root of that mean square plus the small constant. -/
theorem invStd_apply (i : Fin 8) (j : Fin 4096) (u : Fin 1) :
    val_main_v15 (F := Ideal) x0 (ix3 i j u) = invStd (fun k => x0 (ix3 i j k)) := by
  rw [val_main_v15_apply, val_main_v14_apply, val_main_v13_apply, val_main_cst_3_apply, meanSq_apply]
  rfl

/-- The normalised, scaled and shifted entry. -/
theorem normed_apply (i : Fin 8) (j : Fin 4096) (k : Fin 1024) :
    val_main_v23 (F := Ideal) x0 x1 x2 (ix3 i j k)
      = normed (fun k => x0 (ix3 i j k)) (fun k => x1 (ix1 k)) (fun k => x2 (ix1 k)) k := by
  rw [val_main_v23_apply, val_main_v20_apply, val_main_v17_apply, val_main_v16_apply, val_main_v19_apply, val_main_v18_apply,
    val_main_v22_apply, val_main_v21_apply, centred_apply']
  have e16 : idx_main_v16 (ix3 i j k) = ix3 i j (0 : Fin 1) :=
    funext fun a => Fin.ext (by match a with | ⟨0, _⟩ => rfl | ⟨1, _⟩ => rfl | ⟨2, _⟩ => rfl)
  have e18 : idx_main_v18 (idx_main_v19 (ix3 i j k)) = ix1 k :=
    funext fun a => Fin.ext (by match a with | ⟨0, _⟩ => rfl)
  have e21 : idx_main_v21 (idx_main_v22 (ix3 i j k)) = ix1 k :=
    funext fun a => Fin.ext (by match a with | ⟨0, _⟩ => rfl)
  rw [e16, e18, e21, invStd_apply]
  rfl

/-- The projected entry: the contraction of the normalised row with column `e` of the table, plus the shift. -/
theorem proj_apply (i : Fin 8) (j : Fin 4096) (e : Fin 2048) :
    val_main_v27 (F := Ideal) x0 x1 x2 x3 x4 (ix3 i j e)
      = proj (fun k => x0 (ix3 i j k)) (fun k => x1 (ix1 k)) (fun k => x2 (ix1 k)) (fun k e => x3 (ix2 k e)) (fun e => x4 (ix1 e)) e := by
  rw [val_main_v27_apply, val_main_v24_apply, val_main_v26_apply, val_main_v25_apply]
  have el : ∀ k : Fin 1024, lidx_main_v24 (ix3 i j e) k = ix3 i j k := fun k =>
    funext fun a => Fin.ext (by match a with | ⟨0, _⟩ => rfl | ⟨1, _⟩ => rfl | ⟨2, _⟩ => rfl)
  have er : ∀ k : Fin 1024, ridx_main_v24 (ix3 i j e) k = ix2 k e := fun k =>
    funext fun a => Fin.ext (by match a with | ⟨0, _⟩ => rfl | ⟨1, _⟩ => rfl)
  have e25 : idx_main_v25 (idx_main_v26 (ix3 i j e)) = ix1 e :=
    funext fun a => Fin.ext (by match a with | ⟨0, _⟩ => rfl)
  simp only [el, er, normed_apply]
  rw [e25]
  rfl

/-- One over one plus the exponential of the negated gate is the logistic function of the gate. -/
theorem logistic_spelt (g : EReal) :
    Ideal.div (Ideal.ofBits .f32 0x3F800000#32) (Ideal.ofBits .f32 0x3F800000#32 + Ideal.exp (-g)) = Ideal.logistic g := by
  rw [Ideal.ofBits_one_f32]
  rfl

/-- The result at (i, j, d). -/
theorem out_apply (i : Fin 8) (j : Fin 4096) (d : Fin 1024) :
    val_main_v37 (F := Ideal) x0 x1 x2 x3 x4 (ix3 i j d)
      = out (fun k => x0 (ix3 i j k)) (fun k => x1 (ix1 k)) (fun k => x2 (ix1 k)) (fun k e => x3 (ix2 k e)) (fun e => x4 (ix1 e)) d := by
  rw [val_main_v37_apply, val_main_v36_apply, val_main_v28_apply, val_main_v35_apply, val_main_v34_apply, val_main_cst_5_apply,
    val_main_v33_apply, val_main_v32_apply, val_main_cst_4_apply, val_main_v31_apply, val_main_v30_apply, val_main_v29_apply]
  have e28 : idx_main_v28 (ix3 i j d) = ix3 i j (lo d) :=
    funext fun a => Fin.ext (by match a with | ⟨0, _⟩ => rfl | ⟨1, _⟩ => rfl | ⟨2, _⟩ => rfl)
  have e29 : idx_main_v29 (ix3 i j d) = ix3 i j (hi d) :=
    funext fun a => Fin.ext (by match a with | ⟨0, _⟩ => rfl | ⟨1, _⟩ => rfl | ⟨2, _⟩ => rfl)
  rw [e28, e29, proj_apply, proj_apply]
  exact congrArg (fun z => x0 (ix3 i j d) + proj _ _ _ _ _ (lo d) * z) (logistic_spelt _)

/-- The reference's result is `G` of its arguments. -/
theorem result_eq : val_main_v37 (F := Ideal) x0 x1 x2 x3 x4 = G x0 x1 x2 x3 x4 := by
  funext i
  obtain ⟨a, b, d, rfl⟩ : ∃ (a : Fin 8) (b : Fin 4096) (d : Fin 1024), i = ix3 a b d := ⟨i 0, i 1, i 2, eq_ix3 i⟩
  rw [out_apply, G_ix3]

end Cert.RefRow

end
-- ==== Proof.lean ====
/-
  A gated linear block: every row of the argument is normalised (mean taken off, scaled by the reciprocal square
  root of its mean square plus a small constant), scaled and shifted entrywise, multiplied into a table and shifted by
  a bias; half of the product gates the other half through the logistic function, and the gated half is added to the
  row.  The kernel does this on the argument flattened to 32768 rows, 1024 rows per grid point, with the table
  narrowed and the logistic function as one operation; the reference on the three-axis argument, with the logistic
  function spelt as one over one plus the exponential of the negated gate.  On the extended reals the narrowing is the
  identity, both spellings of the logistic function are one function, both programs divide by the same word of 1024
  and add the same small word, and a row's sum or contraction is the same finite sum whichever array it is read from:
  both results are the one function `GluRow.G` of the arguments (`Cert.KernelIdeal.ArrayValue.run`, `Cert.RefRow.result_eq`).  No
  law used needs the inputs finite.

  The three frames are the generated ones (the reference's from its generated run); the idealisation rewrote nothing.
-/
import proofs.«165233_j53446573032203_2_alg».proof.Defs
import proofs.«165233_j53446573032203_2_alg».proof.Proof.Gen.Kernel
import proofs.«165233_j53446573032203_2_alg».proof.Proof.Gen.Kernel.Skeleton
import proofs.«165233_j53446573032203_2_alg».proof.Proof.Gen.Kernel.Launch
import proofs.«165233_j53446573032203_2_alg».proof.Proof.Gen.Kernel.Points
import proofs.«165233_j53446573032203_2_alg».proof.Proof.Gen.Kernel.Frame
import proofs.«165233_j53446573032203_2_alg».proof.Proof.Gen.KernelIdeal
import proofs.«165233_j53446573032203_2_alg».proof.Proof.Gen.KernelIdeal.Skeleton
import proofs.«165233_j53446573032203_2_alg».proof.Proof.Gen.KernelIdeal.Launch
import proofs.«165233_j53446573032203_2_alg».proof.Proof.Gen.KernelIdeal.Points
import proofs.«165233_j53446573032203_2_alg».proof.Proof.Gen.KernelIdeal.Frame
import proofs.«165233_j53446573032203_2_alg».proof.Proof.Gen.ReferenceIdeal
import proofs.«165233_j53446573032203_2_alg».proof.Proof.Gen.ReferenceIdeal.Run
import proofs.«165233_j53446573032203_2_alg».proof.Proof.Gen.ReferenceIdeal.Read
import proofs.«165233_j53446573032203_2_alg».proof.Proof.Gen.Pre_finite_inputs
import proofs.«165233_j53446573032203_2_alg».proof.Proof.KernelArray
import proofs.«165233_j53446573032203_2_alg».proof.Proof.RefRow
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with their result at `GluRow.G` of the
    arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.RefRow.result_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
